-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S128x64 .f32) (main_arg6 : FVec F S64 .f32) (main_arg7 : FVec F S128x64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S128x64 .f32 := Host.absf main_arg7
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128x64 .f32) (main_arg6 : FVec F S64 .f32) (main_arg7 : FVec F S128x64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S5000x128 : Shape := ⟨2, ![5000, 128]⟩
abbrev S1x64 : Shape := ⟨2, ![1, 64]⟩
abbrev S50000x64 : Shape := ⟨2, ![50000, 64]⟩
abbrev S5000x64 : Shape := ⟨2, ![5000, 64]⟩

abbrev nBuf : Space → Nat
  | .hbm => 60
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x64, .f32⟩
  | .hbm, ⟨6, _⟩ => ⟨S64, .f32⟩
  | .hbm, ⟨7, _⟩ => ⟨S128x64, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .f32⟩
  | .hbm, ⟨13, _⟩ => ⟨S800000, .f32⟩
  | .hbm, ⟨14, _⟩ => ⟨S_, .f32⟩
  | .hbm, ⟨15, _⟩ => ⟨S50000, .f32⟩
  | .hbm, ⟨16, _⟩ => ⟨S800000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S_, .i32⟩
  | .hbm, ⟨25, _⟩ => ⟨S800000, .i32⟩
  | .hbm, ⟨26, _⟩ => ⟨S800000, .i1⟩
  | .hbm, ⟨27, _⟩ => ⟨S_, .i32⟩
  | .hbm, ⟨28, _⟩ => ⟨S800000, .i32⟩
  | .hbm, ⟨29, _⟩ => ⟨S800000, .i32⟩
  | .hbm, ⟨30, _⟩ => ⟨S800000, .i32⟩
  | .hbm, ⟨31, _⟩ => ⟨S800000x1, .i32⟩
  | .hbm, ⟨32, _⟩ => ⟨S800000x128, .f32⟩
  | .hbm, ⟨33, _⟩ => ⟨S_, .f32⟩
  | .hbm, ⟨34, _⟩ => ⟨S50000x128, .f32⟩
  | .hbm, ⟨35, _⟩ => ⟨S800000x1, .i32⟩
  | .hbm, ⟨36, _⟩ => ⟨S50000x128, .f32⟩
  | .hbm, ⟨37, _⟩ => ⟨S50000x1, .f32⟩
  | .hbm, ⟨38, _⟩ => ⟨S50000x128, .f32⟩
  | .hbm, ⟨39, _⟩ => ⟨S50000x128, .f32⟩
  | .hbm, ⟨40, _⟩ => ⟨S1x128, .f32⟩
  | .hbm, ⟨41, _⟩ => ⟨S50000x128, .f32⟩
  | .hbm, ⟨42, _⟩ => ⟨S_, .i32⟩
  | .hbm, ⟨43, _⟩ => ⟨S800000, .i32⟩
  | .hbm, ⟨44, _⟩ => ⟨S800000, .i1⟩
  | .hbm, ⟨45, _⟩ => ⟨S_, .i32⟩
  | .hbm, ⟨46, _⟩ => ⟨S800000, .i32⟩
  | .hbm, ⟨47, _⟩ => ⟨S800000, .i32⟩
  | .hbm, ⟨48, _⟩ => ⟨S800000, .i32⟩
  | .hbm, ⟨49, _⟩ => ⟨S800000x1, .i32⟩
  | .hbm, ⟨50, _⟩ => ⟨S800000x128, .f32⟩
  | .hbm, ⟨51, _⟩ => ⟨S_, .f32⟩
  | .hbm, ⟨52, _⟩ => ⟨S50000x128, .f32⟩
  | .hbm, ⟨53, _⟩ => ⟨S800000x1, .i32⟩
  | .hbm, ⟨54, _⟩ => ⟨S50000x128, .f32⟩
  | .hbm, ⟨55, _⟩ => ⟨S50000x1, .f32⟩
  | .hbm, ⟨56, _⟩ => ⟨S50000x128, .f32⟩
  | .hbm, ⟨57, _⟩ => ⟨S50000x128, .f32⟩
  | .hbm, ⟨58, _⟩ => ⟨S1x64, .f32⟩
  | .hbm, ⟨59, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x64, .f32⟩
  | .local _ .vmem, ⟨14, _⟩ => ⟨S1x64, .f32⟩
  | .local _ .vmem, ⟨15, _⟩ => ⟨S128x64, .f32⟩
  | .local _ .vmem, ⟨16, _⟩ => ⟨S5000x64, .f32⟩
  | .local _ .vmem, ⟨17, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x64.size a ≤ S128x64.size a
  hwx1_4 : ∀ i : grid1.Coords, EltTy.bits .f32 = 32 ∨ (Rect.block (s := S128x64) S128x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S50000x64.size a
  hwx1_5 : ∀ i : grid1.Coords, EltTy.bits .f32 = 32 ∨ (Rect.block (s := S50000x64) S5000x64.size (cc1_transform_5 i) (hinb1_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v24) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v39) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v40) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v41) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩
abbrev S50000x64 : Shape := ⟨2, ![50000, 64]⟩
abbrev S1x64 : Shape := ⟨2, ![1, 64]⟩

abbrev nBuf : Space → Nat
  | .hbm => 77
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x64, .f32⟩
  | .hbm, ⟨6, _⟩ => ⟨S64, .f32⟩
  | .hbm, ⟨7, _⟩ => ⟨S128x64, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S_, .f32⟩
  | .hbm, ⟨22, _⟩ => ⟨S50000x128, .f32⟩
  | .hbm, ⟨23, _⟩ => ⟨S800000x1, .i32⟩
  | .hbm, ⟨24, _⟩ => ⟨S50000x128, .f32⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S50000, .f32⟩
  | .hbm, ⟨29, _⟩ => ⟨S800000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x128, .f32⟩
  | .hbm, ⟨36, _⟩ => ⟨S50000x128, .f32⟩
  | .hbm, ⟨37, _⟩ => ⟨S50000x128, .f32⟩
  | .hbm, ⟨38, _⟩ => ⟨S1x128, .f32⟩
  | .hbm, ⟨39, _⟩ => ⟨S50000x128, .f32⟩
  | .hbm, ⟨40, _⟩ => ⟨S50000x128, .f32⟩
  | .hbm, ⟨41, _⟩ => ⟨S50000x128, .f32⟩
  | .hbm, ⟨42, _⟩ => ⟨S50000x128, .f32⟩
  | .hbm, ⟨43, _⟩ => ⟨S_, .f32⟩
  | .hbm, ⟨44, _⟩ => ⟨S50000x128, .f32⟩
  | .hbm, ⟨45, _⟩ => ⟨S50000x128, .f32⟩
  | .hbm, ⟨46, _⟩ => ⟨S_, .i32⟩
  | .hbm, ⟨47, _⟩ => ⟨S800000, .i32⟩
  | .hbm, ⟨48, _⟩ => ⟨S800000, .i1⟩
  | .hbm, ⟨49, _⟩ => ⟨S_, .i32⟩
  | .hbm, ⟨50, _⟩ => ⟨S800000, .i32⟩
  | .hbm, ⟨51, _⟩ => ⟨S800000, .i32⟩
  | .hbm, ⟨52, _⟩ => ⟨S800000, .i32⟩
  | .hbm, ⟨53, _⟩ => ⟨S800000x1, .i32⟩
  | .hbm, ⟨54, _⟩ => ⟨S800000x128, .f32⟩
  | .hbm, ⟨55, _⟩ => ⟨S_, .f32⟩
  | .hbm, ⟨56, _⟩ => ⟨S50000x128, .f32⟩
  | .hbm, ⟨57, _⟩ => ⟨S800000x1, .i32⟩
  | .hbm, ⟨58, _⟩ => ⟨S50000x128, .f32⟩
  | .hbm, ⟨59, _⟩ => ⟨S_, .f32⟩
  | .hbm, ⟨60, _⟩ => ⟨S800000, .f32⟩
  | .hbm, ⟨61, _⟩ => ⟨S_, .f32⟩
  | .hbm, ⟨62, _⟩ => ⟨S50000, .f32⟩
  | .hbm, ⟨63, _⟩ => ⟨S800000x1, .i32⟩
  | .hbm, ⟨64, _⟩ => ⟨S50000, .f32⟩
  | .hbm, ⟨65, _⟩ => ⟨S_, .f32⟩
  | .hbm, ⟨66, _⟩ => ⟨S50000, .f32⟩
  | .hbm, ⟨67, _⟩ => ⟨S50000, .f32⟩
  | .hbm, ⟨68, _⟩ => ⟨S50000x1, .f32⟩
  | .hbm, ⟨69, _⟩ => ⟨S50000x128, .f32⟩
  | .hbm, ⟨70, _⟩ => ⟨S50000x128, .f32⟩
  | .hbm, ⟨71, _⟩ => ⟨S50000x64, .f32⟩
  | .hbm, ⟨72, _⟩ => ⟨S1x64, .f32⟩
  | .hbm, ⟨73, _⟩ => ⟨S50000x64, .f32⟩
  | .hbm, ⟨74, _⟩ => ⟨S50000x64, .f32⟩
  | .hbm, ⟨75, _⟩ => ⟨S50000x64, .f32⟩
  | .hbm, ⟨76, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_c_4 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.KRun.lean ====
/-
  The idealized kernel program's run with its result named.

  @main is four segments: the host operations that build the first layer's neighbour mean, the first dense
  layer's grid of ten row blocks, the host operations that build the second layer's neighbour mean from the first
  layer's output, and the second dense layer's grid. Every weakly fair execution terminates; the result array ends
  holding what the second grid's write-backs leave, block after block, and the eight arguments end as launched.
-/
import proofs.«174927_j49100066128181_1_alg».proof.Proof.Gen.KernelIdeal.Frame

set_option maxRecDepth 16384

noncomputable section

namespace Cert.KernelIdeal.RunV

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- After the last segment the result buffer holds what the second grid's write-backs leave in its array. -/
theorem result_eq (c : Dev nD) : W4 m ρ c (Proc.devRef .tc main_v41) = (dat1 (V3 m ρ) c).arrAt 5 cfg1.N :=
  W4_arr m ρ c 5

set_option backward.isDefEq.respectTransparency.types false in
/-- THE RUN: from any memory with zero counters every weakly fair execution of @main terminates without a fault,
    the result array at the second grid's folded write-backs and every argument array as launched. -/
theorem run_main : θ_run defs (onTc (τ := τ) (main (F := F))) ⟨m, fun _ => 0, ρ⟩ (fun r => ∀ c : Dev nD,
      r.2.mem ((c.tc : Thread nD τ).loc main_v41) = (dat1 (V3 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v41 (by decide))).trans (result_eq m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.RunV

end
-- ==== Proof.LibPlainDot.lean ====
/-
  A plain matrix product read at an index.

  For the dimension numbers of an `M×K` by `K×N` product (`DotDims.plain`: the left operand contracted on its second
  axis, the right one on its first, no batch axis), the sum over the contraction index of the operands' products at
  result index `(i, j)` is `Σ_k l[i,k]·r[k,j]` over `k : Fin K`. Stated for the sum itself, so that it serves a
  kernel's matrix product into a zero accumulator and a host's `dot_general` alike.
-/
import Idealize.ShloMosaic.PureOps.Ideal
import Idealize.ShloMosaic.PureOps.Ideal.Laws
import Idealize.ShloMosaic.Lib.ValueIdx

noncomputable section

namespace Cert.Lib

open Idealize.ShloMosaic Idealize.ShloMosaic.ValueIdx

/-- The contraction shape of a plain product has one axis. -/
theorem plain_contr_rank (M K N : Nat) : (DotDims.plain M K N).contr.rank = 1 := rfl

/-- The left operand's index at result `(i, j)` and contraction position `k` is `(i, k)`. -/
theorem plain_lhsIdx (M K N : Nat) (i : Fin M) (j : Fin N) (k : Fin K) :
    (DotDims.plain M K N).lhsIdx (ix2 i j) ((contrEquiv1 (DotDims.plain M K N) K rfl rfl).symm k) = ix2 i k := by
  funext a
  refine Fin.ext ?_
  match a with
  | ⟨0, _⟩ => rfl
  | ⟨1, _⟩ =>
    show (((contrEquiv1 (DotDims.plain M K N) K rfl rfl).symm k) ⟨0, (Nat.one_pos : 0 < 1)⟩ : ℕ) = k.val
    exact contrEquiv1_symm_val (DotDims.plain M K N) K rfl rfl k

/-- The right operand's index at result `(i, j)` and contraction position `k` is `(k, j)`. -/
theorem plain_rhsIdx (M K N : Nat) (i : Fin M) (j : Fin N) (k : Fin K) :
    (DotDims.plain M K N).rhsIdx (ix2 i j) ((contrEquiv1 (DotDims.plain M K N) K rfl rfl).symm k) = ix2 k j := by
  funext a
  refine Fin.ext ?_
  match a with
  | ⟨0, _⟩ =>
    show (((contrEquiv1 (DotDims.plain M K N) K rfl rfl).symm k) ⟨0, (Nat.one_pos : 0 < 1)⟩ : ℕ) = k.val
    exact contrEquiv1_symm_val (DotDims.plain M K N) K rfl rfl k
  | ⟨1, _⟩ => rfl

/-- THE PLAIN PRODUCT'S SUM at `(i, j)`: over `k : Fin K`, of `l[i,k]·r[k,j]`. -/
theorem plain_sum (M K N : Nat) (l : (⟨2, ![M, K]⟩ : Shape).Idx → EReal) (r : (⟨2, ![K, N]⟩ : Shape).Idx → EReal)
    (i : Fin M) (j : Fin N) :
    (∑ q : (DotDims.plain M K N).contr.Idx,
        l ((DotDims.plain M K N).lhsIdx (ix2 i j) q) * r ((DotDims.plain M K N).rhsIdx (ix2 i j) q))
      = ∑ k : Fin K, l (ix2 i k) * r (ix2 k j) := by
  rw [← Equiv.sum_comp (contrEquiv1 (DotDims.plain M K N) K rfl rfl).symm]
  exact Finset.sum_congr rfl fun k _ => by rw [plain_lhsIdx, plain_rhsIdx]

/-- A host `dot_general` with the plain dimension numbers, at the ideal values, read at `(i, j)`. -/
theorem plain_dotGeneral_apply (M K N : Nat) {φ₁ φ₂ : FTy} (prec : Option ContractPrecision)
    (l : FVec Ideal ⟨2, ![M, K]⟩ φ₁) (r : FVec Ideal ⟨2, ![K, N]⟩ φ₂) (i : Fin M) (j : Fin N) :
    Host.dotGeneral (DotDims.plain M K N) prec l r (ix2 i j) = ∑ k : Fin K, l (ix2 i k) * r (ix2 k j) :=
  (Ideal.dotGeneral_apply (DotDims.plain M K N) prec _ l r (ix2 i j)).trans (plain_sum M K N l r i j)

/-- A kernel's matrix product with the plain dimension numbers into the zero splat, at the ideal values, read at `(i, j)`. -/
theorem plain_matmul_zero_apply (M K N : Nat) {φ₁ φ₂ : FTy} (prec : Option ContractPrecision)
    (l : FVec Ideal ⟨2, ![M, K]⟩ φ₁) (r : FVec Ideal ⟨2, ![K, N]⟩ φ₂) (i : Fin M) (j : Fin N) :
    matmul (DotDims.plain M K N) prec l r (constant ⟨2, ![M, N]⟩ .f32 0x00000000#32) (ix2 i j)
      = ∑ k : Fin K, l (ix2 i k) * r (ix2 k j) :=
  (Ideal.matmul_constant_zero_apply (DotDims.plain M K N) prec l r (ix2 i j)).trans (plain_sum M K N l r i j)

end Cert.Lib

end
-- ==== Proof.Dense.lean ====
/-
  One dense layer of a mean-aggregating graph convolution, entry by entry, on the extended reals.

  With `mean` the neighbour means and `feat` the node features (both M×128), two weight matrices (128×N) and a bias
  row (1×N), entry (i, j) of the layer is
      (Σₖ mean[i,k]·Wl[k,j] + Σₖ feat[i,k]·Wr[k,j]) + b[0,j].
  A kernel body computes it as two matrix products into zero accumulators, their sum, plus the bias row spread over
  the rows; a host program as (mean·Wl + bias) + feat·Wr with the bias vector spread first into a row and then over
  the rows. The two differ by one exchange of summands, which the extended reals allow without any finiteness.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«174927_j49100066128181_1_alg».proof.Proof.LibPlainDot

noncomputable section

open scoped BigOperators

namespace Cert.Sage

open Idealize.ShloMosaic Idealize.ShloMosaic.ValueIdx

/-- A rank-2 array of extended reals. -/
abbrev Arr (M N : ℕ) : Type := (⟨2, ![M, N]⟩ : Shape).Idx → EReal

/-- Entry `(i, j)` of the dense layer. -/
def dense {M N : ℕ} (mean feat : Arr M 128) (Wl Wr : Arr 128 N) (b : Arr 1 N) (i : Fin M) (j : Fin N) : EReal :=
  ((∑ k : Fin 128, mean (ix2 i k) * Wl (ix2 k j)) + ∑ k : Fin 128, feat (ix2 i k) * Wr (ix2 k j)) + b (ix2 (0 : Fin 1) j)

/-- The entry depends only on row `i` of the two data arrays, column `j` of the weights and of the bias. -/
theorem dense_congr {M M' N : ℕ} (mean feat : Arr M 128) (mean' feat' : Arr M' 128) (Wl Wr Wl' Wr' : Arr 128 N)
    (b b' : Arr 1 N) (i : Fin M) (i' : Fin M') (j : Fin N)
    (h0 : ∀ k : Fin 128, mean (ix2 i k) = mean' (ix2 i' k)) (h1 : ∀ k : Fin 128, feat (ix2 i k) = feat' (ix2 i' k))
    (h2 : ∀ k : Fin 128, Wl (ix2 k j) = Wl' (ix2 k j)) (h3 : ∀ k : Fin 128, Wr (ix2 k j) = Wr' (ix2 k j))
    (h4 : b (ix2 (0 : Fin 1) j) = b' (ix2 (0 : Fin 1) j)) :
    dense mean feat Wl Wr b i j = dense mean' feat' Wl' Wr' b' i' j := by
  unfold dense
  have e0 : (∑ k : Fin 128, mean (ix2 i k) * Wl (ix2 k j)) = ∑ k : Fin 128, mean' (ix2 i' k) * Wl' (ix2 k j) :=
    Finset.sum_congr rfl fun k _ => by rw [h0 k, h2 k]
  have e1 : (∑ k : Fin 128, feat (ix2 i k) * Wr (ix2 k j)) = ∑ k : Fin 128, feat' (ix2 i' k) * Wr' (ix2 k j) :=
    Finset.sum_congr rfl fun k _ => by rw [h1 k, h3 k]
  rw [e0, e1, h4]

/-- THE KERNEL BODY'S FORM: two products into zero accumulators, added, plus the bias row spread over the rows. -/
theorem body_apply (M N : ℕ) {φ₀ φ₁ φ₂ φ₃ : FTy} (x0 : FVec Ideal ⟨2, ![M, 128]⟩ φ₀) (x1 : FVec Ideal ⟨2, ![M, 128]⟩ φ₁)
    (w0 : FVec Ideal ⟨2, ![128, N]⟩ φ₂) (w1 : FVec Ideal ⟨2, ![128, N]⟩ φ₃) (b : FVec Ideal ⟨2, ![1, N]⟩ .f32)
    (hb : (⟨2, ![1, N]⟩ : Shape).Broadcasts ⟨2, ![M, N]⟩) (p : Fin M) (q : Fin N) :
    addf (addf (matmul (DotDims.plain M 128 N) none x0 w0 (constant ⟨2, ![M, N]⟩ .f32 0x00000000#32))
        (matmul (DotDims.plain M 128 N) none x1 w1 (constant ⟨2, ![M, N]⟩ .f32 0x00000000#32)))
      (broadcastTo ⟨2, ![M, N]⟩ b hb) (ix2 p q) = dense x0 x1 w0 w1 b p q := by
  rw [addf_apply, addf_apply, Cert.Lib.plain_matmul_zero_apply, Cert.Lib.plain_matmul_zero_apply,
    broadcastTo_1b_ab_apply]
  rfl

/-- THE HOST'S FORM: `(mean·Wl + bias) + feat·Wr`, the bias vector spread into a row and then over the rows; the
    same entry, with the bias vector read as one row. -/
theorem host_apply (M N : ℕ) (mean x : FVec Ideal ⟨2, ![M, 128]⟩ .f32) (Wl Wr : FVec Ideal ⟨2, ![128, N]⟩ .f32)
    (bv : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2))
    (hs : (⟨1, ![N]⟩ : Shape).ShapeCasts ⟨2, ![1, N]⟩) (p : Fin M) (q : Fin N) :
    addf (addf (Host.dotGeneral (DotDims.plain M 128 N) none mean Wl)
        (broadcastInDim ⟨2, ![M, N]⟩ ![0, 1] h2 (broadcastInDim ⟨2, ![1, N]⟩ ![1] h1 bv)))
      (Host.dotGeneral (DotDims.plain M 128 N) none x Wr) (ix2 p q)
      = dense mean x Wl Wr (shapeCast ⟨2, ![1, N]⟩ bv hs) p q := by
  have hbias : broadcastInDim ⟨2, ![M, N]⟩ ![0, 1] h2 (broadcastInDim ⟨2, ![1, N]⟩ ![1] h1 bv) (ix2 p q) = bv (ix1 q) := by
    refine (broadcastInDim_apply ![0, 1] h2 _ (ix2 p q) (ix2 (0 : Fin 1) q) fun a => ?_).trans
      (broadcastInDim_apply ![1] h1 bv (ix2 (0 : Fin 1) q) (ix1 q) fun a => ?_)
    · match a with
      | ⟨0, _⟩ => rfl
      | ⟨1, _⟩ =>
        show q.val = if N = 1 then 0 else q.val
        split
        · have := q.isLt; omega
        · rfl
    · match a with
      | ⟨0, _⟩ =>
        show q.val = if N = 1 then 0 else q.val
        split
        · have := q.isLt; omega
        · rfl
  rw [addf_apply, addf_apply, Cert.Lib.plain_dotGeneral_apply, Cert.Lib.plain_dotGeneral_apply, hbias]
  unfold dense
  rw [shapeCast_a_1a_apply bv hs 0 q, add_right_comm]

/-! ## The layer as a whole array -/

/-- The dense layer of whole arrays. -/
def denseArr {M N : ℕ} (mean feat : Arr M 128) (Wl Wr : Arr 128 N) (b : Arr 1 N) : Arr M N :=
  fun i => dense mean feat Wl Wr b (i 0) (i 1)

/-- The dense layer of whole arrays, floored at zero (the binary32 word of zero, left unread). -/
def denseRelu {M N : ℕ} (mean feat : Arr M 128) (Wl Wr : Arr 128 N) (b : Arr 1 N) : Arr M N :=
  fun i => max (dense mean feat Wl Wr b (i 0) (i 1)) (Ideal.ofBits .f32 0x00000000#32)

/-- The host's layer, as whole arrays. -/
theorem host_layer (M N : ℕ) (mean x : FVec Ideal ⟨2, ![M, 128]⟩ .f32) (Wl Wr : FVec Ideal ⟨2, ![128, N]⟩ .f32)
    (bv : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2))
    (hs : (⟨1, ![N]⟩ : Shape).ShapeCasts ⟨2, ![1, N]⟩) :
    addf (addf (Host.dotGeneral (DotDims.plain M 128 N) none mean Wl)
        (broadcastInDim ⟨2, ![M, N]⟩ ![0, 1] h2 (broadcastInDim ⟨2, ![1, N]⟩ ![1] h1 bv)))
      (Host.dotGeneral (DotDims.plain M 128 N) none x Wr)
      = denseArr mean x Wl Wr (shapeCast ⟨2, ![1, N]⟩ bv hs) := by
  funext i
  obtain ⟨p, q, rfl⟩ : ∃ (p : Fin M) (q : Fin N), i = ix2 p q := ⟨i 0, i 1, eq_ix2 i⟩
  exact host_apply M N mean x Wl Wr bv h1 h2 hs p q

/-- The host's layer followed by the maximum with a zero splat, as whole arrays. -/
theorem host_layer_relu (M N : ℕ) (mean x : FVec Ideal ⟨2, ![M, 128]⟩ .f32) (Wl Wr : FVec Ideal ⟨2, ![128, N]⟩ .f32)
    (bv : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2))
    (hs : (⟨1, ![N]⟩ : Shape).ShapeCasts ⟨2, ![1, N]⟩)
    (h0 : (⟨0, ![]⟩ : Shape).BroadcastsInDim ⟨2, ![M, N]⟩ (![] : Fin 0 → Fin 2)) :
    maximumf (addf (addf (Host.dotGeneral (DotDims.plain M 128 N) none mean Wl)
          (broadcastInDim ⟨2, ![M, N]⟩ ![0, 1] h2 (broadcastInDim ⟨2, ![1, N]⟩ ![1] h1 bv)))
        (Host.dotGeneral (DotDims.plain M 128 N) none x Wr))
      (broadcastInDim ⟨2, ![M, N]⟩ ![] h0 (constant ⟨0, ![]⟩ .f32 0x00000000#32))
      = denseRelu mean x Wl Wr (shapeCast ⟨2, ![1, N]⟩ bv hs) := by
  funext i
  obtain ⟨p, q, rfl⟩ : ∃ (p : Fin M) (q : Fin N), i = ix2 p q := ⟨i 0, i 1, eq_ix2 i⟩
  rw [maximumf_apply, host_apply M N mean x Wl Wr bv h1 h2 hs p q,
    broadcastInDim_apply ![] h0 (constant ⟨0, ![]⟩ .f32 0x00000000#32) (ix2 p q) (fun a => a.elim0) (fun a => a.elim0)]
  rfl

end Cert.Sage

end
-- ==== Proof.Pay.lean ====
/-
  What each kernel body stores, read at an entry, on the extended reals.

  Both bodies load a block of neighbour means and a block of node features (5000 rows each), two whole weight
  matrices and the bias row, change the float format of the four matrix operands (the identity on the extended
  reals), multiply into zero accumulators, add the two products and the bias row spread over the rows; the first
  layer's body then takes the maximum with zero. Entry (p, q) of the stored block is therefore the dense layer's
  entry of the loaded blocks.
-/
import proofs.«174927_j49100066128181_1_alg».proof.Proof.Gen.KernelIdeal.Skeleton
import proofs.«174927_j49100066128181_1_alg».proof.Proof.Dense

noncomputable section

namespace Cert.KernelIdeal.Pay

open Cert.KernelIdeal Cert.KernelIdeal.Gen Idealize.ShloMosaic Idealize.ShloMosaic.ValueIdx Cert.Sage

/-- The first layer's stored block at `(p, q)`: the dense entry of the loaded blocks, floored at zero. -/
theorem pay0_apply (x0 x1 : Vec Ideal S5000x128 .f32) (x2 x4 : Vec Ideal S128x128 .f32) (x3 : Vec Ideal S1x128 .f32)
    (p : Fin 5000) (q : Fin 128) :
    k0_pay1 (F := Ideal) x0 x1 x2 x4 x3 (ix2 p q)
      = max (dense x0 x1 x2 x4 x3 p q) (Ideal.ofBits .f32 0x00000000#32) := by
  unfold k0_pay1
  rw [maximumf_apply, broadcast_apply, shapeCast_self, shapeCast_self]
  exact congrArg₂ max (body_apply 5000 128 _ _ _ _ x3 _ p q) rfl

/-- The second layer's stored block at `(p, q)`: the dense entry of the loaded blocks. -/
theorem pay1_apply (x0 x1 : Vec Ideal S5000x128 .f32) (x2 x4 : Vec Ideal S128x64 .f32) (x3 : Vec Ideal S1x64 .f32)
    (p : Fin 5000) (q : Fin 64) :
    k1_pay1 (F := Ideal) x0 x1 x2 x4 x3 (ix2 p q) = dense x0 x1 x2 x4 x3 p q := by
  unfold k1_pay1
  rw [shapeCast_self, shapeCast_self, shapeCast_self]
  exact body_apply 5000 64 _ _ _ _ x3 _ p q

end Cert.KernelIdeal.Pay

end
-- ==== Proof.Blocks0.lean ====
/-
  The first dense layer's grid: from row blocks to the whole array, on the extended reals.

  The grid has ten points. Point t reads rows 5000·t … 5000·t + 4999 of the neighbour means and of the node features,
  the two weight matrices and the bias row whole, and writes back rows 5000·t … 5000·t + 4999 of the output. What it
  writes back is the dense layer's entries, floored at zero, of the blocks it read, and an entry of a block of rows is the
  entry of the whole array at the shifted row; the ten blocks tile the 50000 rows. So the output array ends holding
  the dense layer, floored at zero, of the arrays the grid was entered with, whatever they are.
-/
import proofs.«174927_j49100066128181_1_alg».proof.Proof.Gen.KernelIdeal.Frame
import proofs.«174927_j49100066128181_1_alg».proof.Proof.Pay
import Idealize.ShloMosaic.Lib.Pipeline.Value

set_option maxRecDepth 16384

noncomputable section

namespace Cert.KernelIdeal.Blocks0

open Cert.KernelIdeal Cert.KernelIdeal.Gen Cert.KernelIdeal.Pay Cert.Sage
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The windows' block indices over the grid: the two data windows move with the output window along the rows, the
    weights and the bias stay at block zero, and the output's row block is one of the ten. -/
theorem idx_facts : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) ≤ 9 ∧ win0_5.index t (1 : Fin 2) = 0 :=
  (by decide +kernel : ∀ t : Fin grid0.N, _)

/-- Every one of the ten row blocks is some point's. -/
theorem idx_onto : ∀ q0 : Fin 10, ∃ t : Fin cfg0.N, win0_5.index t = ![q0.val, 0] :=
  (by decide +kernel : ∀ q0 : Fin 10, ∃ t : Fin grid0.N, win0_5.index t = ![q0.val, 0])

/-- WHAT POINT `t` WRITES BACK is block `t` of the layer of the arrays the grid was entered with. -/
theorem flushed_eq (c : Dev nD) (t : Fin cfg0.N) :
    (dat0 V c).flushed 5 t = ((cfg0.win 5).blk t).view.read (Elt Ideal)
      (denseRelu (V c main_v24) (V c main_arg0) (V c main_arg2) (V c main_arg4) (V c main_v25)) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x128) hz, View.ld_unit_zero (S := S1x128) hz]
  obtain ⟨e00, e01, e10, e11, e20, e21, e30, e31, e40, e41, e5b, e51⟩ := idx_facts t
  funext j
  obtain ⟨p, q, rfl⟩ : ∃ (p : Fin 5000) (q : Fin 128), j = ix2 p q := ⟨j 0, j 1, eq_ix2 j⟩
  have hr : win0_5.index t (0 : Fin 2) * 5000 + p.val < 50000 := by have := p.isLt; omega
  have hemb : ((cfg0.win 5).blk t).view.emb (ix2 p q)
      = ix2 (⟨win0_5.index t (0 : Fin 2) * 5000 + p.val, hr⟩ : Fin 50000) q := by
    funext a; apply Fin.ext
    match a with
    | ⟨0, _⟩ => show win0_5.index t (0 : Fin 2) * 5000 + 1 * p.val = win0_5.index t (0 : Fin 2) * 5000 + p.val; omega
    | ⟨1, _⟩ => show win0_5.index t (1 : Fin 2) * 128 + 1 * q.val = q.val; omega
  refine (pay0_apply (iblk0 V c 0 t) (iblk0 V c 1 t) (iblk0 V c 2 t) (iblk0 V c 4 t) (iblk0 V c 3 t) p q).trans ?_
  show _ = denseRelu _ _ _ _ _ (((cfg0.win 5).blk t).view.emb (ix2 p q))
  rw [hemb]
  show max _ _ = max (dense _ _ _ _ _ (⟨_, hr⟩ : Fin 50000) q) _
  refine congrArg (fun e => max e (Ideal.ofBits .f32 0x00000000#32)) (dense_congr _ _ _ _ _ _ _ _ _ _ p ⟨_, hr⟩ q ?_ ?_ ?_ ?_ ?_)
  · intro k
    show V c main_v24 (((cfg0.win 0).blk t).view.emb (ix2 p k)) = V c main_v24 (ix2 _ k)
    refine congrArg (V c main_v24) (funext fun a => Fin.ext ?_)
    match a with
    | ⟨0, _⟩ => show win0_0.index t (0 : Fin 2) * 5000 + 1 * (p).val = win0_5.index t (0 : Fin 2) * 5000 + p.val; omega
    | ⟨1, _⟩ => show win0_0.index t (1 : Fin 2) * 128 + 1 * (k).val = (k).val; omega
  · intro k
    show V c main_arg0 (((cfg0.win 1).blk t).view.emb (ix2 p k)) = V c main_arg0 (ix2 _ k)
    refine congrArg (V c main_arg0) (funext fun a => Fin.ext ?_)
    match a with
    | ⟨0, _⟩ => show win0_1.index t (0 : Fin 2) * 5000 + 1 * (p).val = win0_5.index t (0 : Fin 2) * 5000 + p.val; omega
    | ⟨1, _⟩ => show win0_1.index t (1 : Fin 2) * 128 + 1 * (k).val = (k).val; omega
  · intro k
    show V c main_arg2 (((cfg0.win 2).blk t).view.emb (ix2 k q)) = V c main_arg2 (ix2 k q)
    refine congrArg (V c main_arg2) (funext fun a => Fin.ext ?_)
    match a with
    | ⟨0, _⟩ => show win0_2.index t (0 : Fin 2) * 128 + 1 * k.val = k.val; omega
    | ⟨1, _⟩ => show win0_2.index t (1 : Fin 2) * 128 + 1 * q.val = q.val; omega
  · intro k
    show V c main_arg4 (((cfg0.win 4).blk t).view.emb (ix2 k q)) = V c main_arg4 (ix2 k q)
    refine congrArg (V c main_arg4) (funext fun a => Fin.ext ?_)
    match a with
    | ⟨0, _⟩ => show win0_4.index t (0 : Fin 2) * 128 + 1 * k.val = k.val; omega
    | ⟨1, _⟩ => show win0_4.index t (1 : Fin 2) * 128 + 1 * q.val = q.val; omega
  · show V c main_v25 (((cfg0.win 3).blk t).view.emb (ix2 (0 : Fin 1) q)) = V c main_v25 (ix2 (0 : Fin 1) q)
    refine congrArg (V c main_v25) (funext fun a => Fin.ext ?_)
    match a with
    | ⟨0, _⟩ => show win0_3.index t (0 : Fin 2) * 1 + 1 * 0 = 0; omega
    | ⟨1, _⟩ => show win0_3.index t (1 : Fin 2) * 128 + 1 * q.val = q.val; omega

/-- An index of the output array is in point `t`'s block iff each coordinate is in the block's range on its axis. -/
theorem mem_blk (t : Fin cfg0.N) (i : S50000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v26).slice (win0_5.rect t)).set ↔ _
  rw [View.set_slice_whole, Rect.mem_set_unit]
  exact Iff.rfl

/-- Row `r` is written back by the point whose block index is `r / 5000`. -/
theorem cover (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  obtain ⟨t, ht⟩ := idx_onto ⟨(i 0).val / 5000, by omega⟩
  have q0 : win0_5.index t (0 : Fin 2) = (i 0).val / 5000 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- THE OUTPUT ARRAY after the grid: the layer of the arrays the grid was entered with. -/
theorem final (c : Dev nD) : (dat0 V c).arrAt 5 cfg0.N
    = denseRelu (V c main_v24) (V c main_arg0) (V c main_arg2) (V c main_arg4) (V c main_v25) :=
  (dat0 V c).arrAt_eq_of_cover 5 _ (fun t _ => flushed_eq V c t) cover

end Cert.KernelIdeal.Blocks0

end
-- ==== Proof.Blocks1.lean ====
/-
  The second dense layer's grid: from row blocks to the whole array, on the extended reals.

  The grid has ten points. Point t reads rows 5000·t … 5000·t + 4999 of the neighbour means and of the node features,
  the two weight matrices and the bias row whole, and writes back rows 5000·t … 5000·t + 4999 of the output. What it
  writes back is the dense layer's entries of the blocks it read, and an entry of a block of rows is the
  entry of the whole array at the shifted row; the ten blocks tile the 50000 rows. So the output array ends holding
  the dense layer of the arrays the grid was entered with, whatever they are.
-/
import proofs.«174927_j49100066128181_1_alg».proof.Proof.Gen.KernelIdeal.Frame
import proofs.«174927_j49100066128181_1_alg».proof.Proof.Pay
import Idealize.ShloMosaic.Lib.Pipeline.Value

set_option maxRecDepth 16384

noncomputable section

namespace Cert.KernelIdeal.Blocks1

open Cert.KernelIdeal Cert.KernelIdeal.Gen Cert.KernelIdeal.Pay Cert.Sage
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The windows' block indices over the grid: the two data windows move with the output window along the rows, the
    weights and the bias stay at block zero, and the output's row block is one of the ten. -/
theorem idx_facts : ∀ t : Fin cfg1.N,
    win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) ≤ 9 ∧ win1_5.index t (1 : Fin 2) = 0 :=
  (by decide +kernel : ∀ t : Fin grid1.N, _)

/-- Every one of the ten row blocks is some point's. -/
theorem idx_onto : ∀ q0 : Fin 10, ∃ t : Fin cfg1.N, win1_5.index t = ![q0.val, 0] :=
  (by decide +kernel : ∀ q0 : Fin 10, ∃ t : Fin grid1.N, win1_5.index t = ![q0.val, 0])

/-- WHAT POINT `t` WRITES BACK is block `t` of the layer of the arrays the grid was entered with. -/
theorem flushed_eq (c : Dev nD) (t : Fin cfg1.N) :
    (dat1 V c).flushed 5 t = ((cfg1.win 5).blk t).view.read (Elt Ideal)
      (denseArr (V c main_v39) (V c main_v26) (V c main_arg5) (V c main_arg7) (V c main_v40)) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x64) hz, View.ld_unit_zero (S := S1x64) hz]
  obtain ⟨e00, e01, e10, e11, e20, e21, e30, e31, e40, e41, e5b, e51⟩ := idx_facts t
  funext j
  obtain ⟨p, q, rfl⟩ : ∃ (p : Fin 5000) (q : Fin 64), j = ix2 p q := ⟨j 0, j 1, eq_ix2 j⟩
  have hr : win1_5.index t (0 : Fin 2) * 5000 + p.val < 50000 := by have := p.isLt; omega
  have hemb : ((cfg1.win 5).blk t).view.emb (ix2 p q)
      = ix2 (⟨win1_5.index t (0 : Fin 2) * 5000 + p.val, hr⟩ : Fin 50000) q := by
    funext a; apply Fin.ext
    match a with
    | ⟨0, _⟩ => show win1_5.index t (0 : Fin 2) * 5000 + 1 * p.val = win1_5.index t (0 : Fin 2) * 5000 + p.val; omega
    | ⟨1, _⟩ => show win1_5.index t (1 : Fin 2) * 64 + 1 * q.val = q.val; omega
  refine (pay1_apply (iblk1 V c 0 t) (iblk1 V c 1 t) (iblk1 V c 2 t) (iblk1 V c 4 t) (iblk1 V c 3 t) p q).trans ?_
  show _ = denseArr _ _ _ _ _ (((cfg1.win 5).blk t).view.emb (ix2 p q))
  rw [hemb]
  show _ = dense _ _ _ _ _ (⟨_, hr⟩ : Fin 50000) q
  refine (dense_congr _ _ _ _ _ _ _ _ _ _ p ⟨_, hr⟩ q ?_ ?_ ?_ ?_ ?_)
  · intro k
    show V c main_v39 (((cfg1.win 0).blk t).view.emb (ix2 p k)) = V c main_v39 (ix2 _ k)
    refine congrArg (V c main_v39) (funext fun a => Fin.ext ?_)
    match a with
    | ⟨0, _⟩ => show win1_0.index t (0 : Fin 2) * 5000 + 1 * (p).val = win1_5.index t (0 : Fin 2) * 5000 + p.val; omega
    | ⟨1, _⟩ => show win1_0.index t (1 : Fin 2) * 128 + 1 * (k).val = (k).val; omega
  · intro k
    show V c main_v26 (((cfg1.win 1).blk t).view.emb (ix2 p k)) = V c main_v26 (ix2 _ k)
    refine congrArg (V c main_v26) (funext fun a => Fin.ext ?_)
    match a with
    | ⟨0, _⟩ => show win1_1.index t (0 : Fin 2) * 5000 + 1 * (p).val = win1_5.index t (0 : Fin 2) * 5000 + p.val; omega
    | ⟨1, _⟩ => show win1_1.index t (1 : Fin 2) * 128 + 1 * (k).val = (k).val; omega
  · intro k
    show V c main_arg5 (((cfg1.win 2).blk t).view.emb (ix2 k q)) = V c main_arg5 (ix2 k q)
    refine congrArg (V c main_arg5) (funext fun a => Fin.ext ?_)
    match a with
    | ⟨0, _⟩ => show win1_2.index t (0 : Fin 2) * 128 + 1 * k.val = k.val; omega
    | ⟨1, _⟩ => show win1_2.index t (1 : Fin 2) * 64 + 1 * q.val = q.val; omega
  · intro k
    show V c main_arg7 (((cfg1.win 4).blk t).view.emb (ix2 k q)) = V c main_arg7 (ix2 k q)
    refine congrArg (V c main_arg7) (funext fun a => Fin.ext ?_)
    match a with
    | ⟨0, _⟩ => show win1_4.index t (0 : Fin 2) * 128 + 1 * k.val = k.val; omega
    | ⟨1, _⟩ => show win1_4.index t (1 : Fin 2) * 64 + 1 * q.val = q.val; omega
  · show V c main_v40 (((cfg1.win 3).blk t).view.emb (ix2 (0 : Fin 1) q)) = V c main_v40 (ix2 (0 : Fin 1) q)
    refine congrArg (V c main_v40) (funext fun a => Fin.ext ?_)
    match a with
    | ⟨0, _⟩ => show win1_3.index t (0 : Fin 2) * 1 + 1 * 0 = 0; omega
    | ⟨1, _⟩ => show win1_3.index t (1 : Fin 2) * 64 + 1 * q.val = q.val; omega

/-- An index of the output array is in point `t`'s block iff each coordinate is in the block's range on its axis. -/
theorem mem_blk (t : Fin cfg1.N) (i : S50000x64.Idx) :
    i ∈ ((cfg1.win 5).blk t).view.set ↔ ∀ a : Fin 2, win1_5.index t a * S5000x64.size a ≤ (i a).val
      ∧ (i a).val < win1_5.index t a * S5000x64.size a + S5000x64.size a := by
  show i ∈ ((View.whole main_v41).slice (win1_5.rect t)).set ↔ _
  rw [View.set_slice_whole, Rect.mem_set_unit]
  exact Iff.rfl

/-- Row `r` is written back by the point whose block index is `r / 5000`. -/
theorem cover (i : S50000x64.Idx) :
    ∃ t : Fin cfg1.N, (cfg1.win 5).flush t = true ∧ i ∈ ((cfg1.win 5).blk t).view.set := by
  have hi0 : (i 0).val < 50000 := (i 0).isLt
  have hi1 : (i 1).val < 64 := (i 1).isLt
  obtain ⟨t, ht⟩ := idx_onto ⟨(i 0).val / 5000, by omega⟩
  have q0 : win1_5.index t (0 : Fin 2) = (i 0).val / 5000 := congrFun ht 0
  have q1 : win1_5.index t (1 : Fin 2) = 0 := congrFun ht 1
  refine ⟨t, flush1_5 t, ?_⟩
  rw [mem_blk]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 64 ≤ (i 1).val ∧ (i 1).val < win1_5.index t (1 : Fin 2) * 64 + 64; omega

/-- THE OUTPUT ARRAY after the grid: the layer of the arrays the grid was entered with. -/
theorem final (c : Dev nD) : (dat1 V c).arrAt 5 cfg1.N
    = denseArr (V c main_v39) (V c main_v26) (V c main_arg5) (V c main_arg7) (V c main_v40) :=
  (dat1 V c).arrAt_eq_of_cover 5 _ (fun t _ => flushed_eq V c t) cover

end Cert.KernelIdeal.Blocks1

end
-- ==== Proof.Mean.lean ====
/-
  The neighbour mean, on the extended reals: multiplying by a reciprocal against dividing.

  With `agg` the per-node sums of neighbour features and `deg` the per-node edge counts, one program forms
  `agg · (1 / max(deg, 1))` and the other `agg / max(deg, 1)`, the per-node factor spread over the feature axis. A
  quotient by `d` is the product with `d⁻¹` whenever `d ≠ 0`, and `max(deg, 1) ≥ 1` is never zero, so the two
  agree at every extended real: no finiteness of `agg` or `deg` is used.

  The pieces of both host programs are named here once, over the dimension records of the gather and the two
  scatter-adds as parameters, so that each program's own records can be put in.
-/
import proofs.«174927_j49100066128181_1_alg».proof.Proof.Gen.KernelIdeal
import Idealize.ShloMosaic.PureOps.Ideal
import Idealize.ShloMosaic.PureOps.Ideal.Laws
import Idealize.ShloMosaic.Lib.ValueIdx
import Idealize.ShloMosaic.Lib.Pipeline.Value

noncomputable section

namespace Cert.Sage

open Cert.KernelIdeal Cert.KernelIdeal.Facts₀ Idealize.ShloMosaic Idealize.ShloMosaic.ValueIdx

variable {F : FTy → Type} [FloatOps F]

/-! ## The host pieces, as both programs spell them -/

/-- Row `r` of the edge list as a vector (`r = 0`: sources, `r = 1`: targets). -/
def srcRaw (e : (⟨S2x800000, .i32⟩ : BufTy).Contents (Elt F)) : (⟨S800000, .i32⟩ : BufTy).Contents (Elt F) :=
  shapeCast _ (extractStridedSlice S1x800000 ![0, 0] e slices_S2x800000_S1x800000_0_0) shapeCasts_S1x800000_S800000
def dstRaw (e : (⟨S2x800000, .i32⟩ : BufTy).Contents (Elt F)) : (⟨S800000, .i32⟩ : BufTy).Contents (Elt F) :=
  shapeCast _ (extractStridedSlice S1x800000 ![1, 0] e slices_S2x800000_S1x800000_1_0) shapeCasts_S1x800000_S800000

/-- The gather's start indices: negative sources wrapped by the number of nodes, as one column. -/
def srcIdx (srcR : (⟨S800000, .i32⟩ : BufTy).Contents (Elt F)) : (⟨S800000x1, .i32⟩ : BufTy).Contents (Elt F) :=
  broadcastInDim S800000x1 ![0] bcast_S800000_S800000x1_0
    (select (cmpi .slt srcR (broadcastInDim S800000 ![] bcast_S_S800000 (constantI S_ 32 0#32)))
      (addi srcR (broadcastInDim S800000 ![] bcast_S_S800000 (constantI S_ 32 50000#32))) srcR)

/-- The per-node sums of gathered neighbour rows. -/
def aggP (G : GatherDims S50000x128 S800000x1 S800000x128) (Sc : ScatterDims S50000x128 S800000x1 S800000x128)
    (feat : (⟨S50000x128, .f32⟩ : BufTy).Contents (Elt F)) (srcR dstR : (⟨S800000, .i32⟩ : BufTy).Contents (Elt F)) :
    (⟨S50000x128, .f32⟩ : BufTy).Contents (Elt F) :=
  Host.scatterAdd Sc (broadcastInDim S50000x128 ![] bcast_S_S50000x128 (constant S_ .f32 0x00000000#32))
    (broadcastInDim S800000x1 ![0] bcast_S800000_S800000x1_0 dstR) (Host.gather G feat (srcIdx srcR))

/-- The per-node edge counts, floored at one. -/
def dmaxP (Sc1 : ScatterDims S50000 S800000x1 S800000) (dstR : (⟨S800000, .i32⟩ : BufTy).Contents (Elt F)) :
    (⟨S50000, .f32⟩ : BufTy).Contents (Elt F) :=
  maximumf (Host.scatterAdd Sc1 (broadcastInDim S50000 ![] bcast_S_S50000 (constant S_ .f32 0x00000000#32))
      (broadcastInDim S800000x1 ![0] bcast_S800000_S800000x1_0 dstR)
      (broadcastInDim S800000 ![] bcast_S_S800000 (constant S_ .f32 0x3F800000#32)))
    (broadcastInDim S50000 ![] bcast_S_S50000 (constant S_ .f32 0x3F800000#32))

/-- A per-node value spread over the feature axis. -/
def spread (v : (⟨S50000, .f32⟩ : BufTy).Contents (Elt F)) : (⟨S50000x128, .f32⟩ : BufTy).Contents (Elt F) :=
  broadcastInDim S50000x128 ![0, 1] bcast_S50000x1_S50000x128_0_1 (broadcastInDim S50000x1 ![0] bcast_S50000_S50000x1_0 v)

/-- The reciprocal of the floored counts. -/
def invP (dmax : (⟨S50000, .f32⟩ : BufTy).Contents (Elt F)) : (⟨S50000, .f32⟩ : BufTy).Contents (Elt F) :=
  Host.divf (broadcastInDim S50000 ![] bcast_S_S50000 (constant S_ .f32 0x3F800000#32)) dmax

/-- The mean as the product with the reciprocal. -/
def meanMul (agg : (⟨S50000x128, .f32⟩ : BufTy).Contents (Elt F)) (inv : (⟨S50000, .f32⟩ : BufTy).Contents (Elt F)) :
    (⟨S50000x128, .f32⟩ : BufTy).Contents (Elt F) := mulf agg (spread inv)

/-- The mean as the quotient. -/
def meanDiv (agg : (⟨S50000x128, .f32⟩ : BufTy).Contents (Elt F)) (dmax : (⟨S50000, .f32⟩ : BufTy).Contents (Elt F)) :
    (⟨S50000x128, .f32⟩ : BufTy).Contents (Elt F) := Host.divf agg (spread dmax)

/-! ## The law -/

/-- The binary32 word of one is the real number one. -/
theorem one_f32 : Ideal.ofBits .f32 0x3F800000#32 = 1 := by
  simp [Ideal.ofBits, Ideal.ieee, -EReal.coe_mul]; norm_num

/-- Off zero, the product with the reciprocal is the quotient. -/
theorem mul_recip (a d : EReal) (hd : d ≠ 0) : a * Ideal.div 1 d = Ideal.div a d := by
  unfold Ideal.div
  rw [if_neg hd, if_neg hd, one_mul]

/-- A per-node value spread over the feature axis reads, at `(r, c)`, the value at `r`. -/
theorem spread_apply (v : FVec Ideal S50000 .f32) (r : Fin 50000) (c : Fin 128) :
    spread (F := Ideal) v (ix2 r c) = v (ix1 r) := by
  unfold spread
  refine (broadcastInDim_apply ![0, 1] bcast_S50000x1_S50000x128_0_1 _ (ix2 r c) (ix2 r (0 : Fin 1)) fun a => ?_).trans
    (broadcastInDim_apply ![0] bcast_S50000_S50000x1_0 v (ix2 r (0 : Fin 1)) (ix1 r) fun a => ?_)
  · match a with
    | ⟨0, _⟩ => rfl
    | ⟨1, _⟩ => rfl
  · match a with
    | ⟨0, _⟩ => rfl

/-- THE LAW: with the counts floored at one, the product with the reciprocal is the quotient, entry by entry. -/
theorem mean_eq (agg : FVec Ideal S50000x128 .f32) (deg : FVec Ideal S50000 .f32) :
    meanMul (F := Ideal) agg
        (invP (maximumf deg (broadcastInDim S50000 ![] bcast_S_S50000 (constant S_ .f32 0x3F800000#32))))
      = meanDiv agg (maximumf deg (broadcastInDim S50000 ![] bcast_S_S50000 (constant S_ .f32 0x3F800000#32))) := by
  funext i
  obtain ⟨r, c, rfl⟩ : ∃ (r : Fin 50000) (c : Fin 128), i = ix2 r c := ⟨i 0, i 1, eq_ix2 i⟩
  unfold meanMul meanDiv invP
  show agg (ix2 r c) * spread (F := Ideal) _ (ix2 r c) = Ideal.div (agg (ix2 r c)) (spread (F := Ideal) _ (ix2 r c))
  rw [spread_apply, spread_apply]
  show agg (ix2 r c) * Ideal.div (Ideal.ofBits .f32 0x3F800000#32) (max (deg (ix1 r)) (Ideal.ofBits .f32 0x3F800000#32))
    = Ideal.div (agg (ix2 r c)) (max (deg (ix1 r)) (Ideal.ofBits .f32 0x3F800000#32))
  rw [one_f32]
  exact mul_recip _ _ (ne_of_gt (lt_of_lt_of_le zero_lt_one (le_max_right _ _)))

end Cert.Sage

end
-- ==== Proof.HostVals.lean ====
/-
  What the host operations of the kernel's program leave in the buffers the two grids read.

  Before the first grid: the edge list's two rows, the reciprocal of the floored edge counts, the neighbour mean of
  the node features (as the product with that reciprocal) and the first bias as one row; the arguments the grid reads
  directly are untouched. Between the grids: the neighbour mean of the first grid's output, built from the same edge
  rows and the same reciprocal, and the second bias as one row.
-/
import proofs.«174927_j49100066128181_1_alg».proof.Proof.Gen.KernelIdeal.Frame
import proofs.«174927_j49100066128181_1_alg».proof.Proof.Mean

set_option maxRecDepth 16384

noncomputable section

namespace Cert.KernelIdeal.HostV

open Cert.KernelIdeal Cert.KernelIdeal.Facts₀ Cert.KernelIdeal.Gen Cert.Sage
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-! ## Before the first grid -/

theorem W1_v1 (c : Dev nD) : W1 m ρ c (Proc.devRef .tc main_v1) = srcRaw (m ((c.tc : Thread nD τ).loc main_arg1)) := by
  after_results_simp <;> rfl

theorem W1_v3 (c : Dev nD) : W1 m ρ c (Proc.devRef .tc main_v3) = dstRaw (m ((c.tc : Thread nD τ).loc main_arg1)) := by
  after_results_simp <;> rfl

theorem W1_v11 (c : Dev nD) : W1 m ρ c (Proc.devRef .tc main_v11)
    = invP (dmaxP scatter_S50000_S800000x1_S800000_n_0_0_1 (dstRaw (m ((c.tc : Thread nD τ).loc main_arg1)))) := by
  after_results_simp <;> rfl

theorem W1_v24 (c : Dev nD) : W1 m ρ c (Proc.devRef .tc main_v24)
    = meanMul (aggP gather_S50000x128_S800000x1_S800000x128_1_0_n_n_0_1_1128 scatter_S50000x128_S800000x1_S800000x128_1_0_0_1
        (m ((c.tc : Thread nD τ).loc main_arg0)) (srcRaw (m ((c.tc : Thread nD τ).loc main_arg1)))
        (dstRaw (m ((c.tc : Thread nD τ).loc main_arg1))))
      (invP (dmaxP scatter_S50000_S800000x1_S800000_n_0_0_1 (dstRaw (m ((c.tc : Thread nD τ).loc main_arg1))))) := by
  after_results_simp <;> rfl

theorem W1_v25 (c : Dev nD) : W1 m ρ c (Proc.devRef .tc main_v25)
    = shapeCast S1x128 (m ((c.tc : Thread nD τ).loc main_arg3)) Facts₀.shapeCasts_S128_S1x128 := by
  after_results_simp <;> rfl

theorem W1_arg0 (c : Dev nD) : W1 m ρ c (Proc.devRef .tc main_arg0) = m ((c.tc : Thread nD τ).loc main_arg0) := by
  after_results_simp <;> rfl
theorem W1_arg2 (c : Dev nD) : W1 m ρ c (Proc.devRef .tc main_arg2) = m ((c.tc : Thread nD τ).loc main_arg2) := by
  after_results_simp <;> rfl
theorem W1_arg4 (c : Dev nD) : W1 m ρ c (Proc.devRef .tc main_arg4) = m ((c.tc : Thread nD τ).loc main_arg4) := by
  after_results_simp <;> rfl
theorem W1_arg5 (c : Dev nD) : W1 m ρ c (Proc.devRef .tc main_arg5) = m ((c.tc : Thread nD τ).loc main_arg5) := by
  after_results_simp <;> rfl
theorem W1_arg6 (c : Dev nD) : W1 m ρ c (Proc.devRef .tc main_arg6) = m ((c.tc : Thread nD τ).loc main_arg6) := by
  after_results_simp <;> rfl
theorem W1_arg7 (c : Dev nD) : W1 m ρ c (Proc.devRef .tc main_arg7) = m ((c.tc : Thread nD τ).loc main_arg7) := by
  after_results_simp <;> rfl

/-! ## Between the grids -/

theorem W3_v39 (c : Dev nD) : W3 m ρ c (Proc.devRef .tc main_v39)
    = meanMul (aggP gather_S50000x128_S800000x1_S800000x128_1_0_n_n_0_1_1128 scatter_S50000x128_S800000x1_S800000x128_1_0_0_1
        (W2 m ρ c (Proc.devRef .tc main_v26)) (W2 m ρ c (Proc.devRef .tc main_v1)) (W2 m ρ c (Proc.devRef .tc main_v3)))
      (W2 m ρ c (Proc.devRef .tc main_v11)) := by
  after_results_simp <;> rfl

theorem W3_v40 (c : Dev nD) : W3 m ρ c (Proc.devRef .tc main_v40)
    = shapeCast S1x64 (W2 m ρ c (Proc.devRef .tc main_arg6)) Facts₀.shapeCasts_S64_S1x64 := by
  after_results_simp <;> rfl

theorem W3_v26 (c : Dev nD) : W3 m ρ c (Proc.devRef .tc main_v26) = W2 m ρ c (Proc.devRef .tc main_v26) := by
  after_results_simp <;> rfl
theorem W3_arg5 (c : Dev nD) : W3 m ρ c (Proc.devRef .tc main_arg5) = W2 m ρ c (Proc.devRef .tc main_arg5) := by
  after_results_simp <;> rfl
theorem W3_arg7 (c : Dev nD) : W3 m ρ c (Proc.devRef .tc main_arg7) = W2 m ρ c (Proc.devRef .tc main_arg7) := by
  after_results_simp <;> rfl

/-! ## Across the first grid: a buffer that is not one of its arrays keeps what the host left there -/

theorem W2_v1 (c : Dev nD) : W2 m ρ c (Proc.devRef .tc main_v1) = srcRaw (m ((c.tc : Thread nD τ).loc main_arg1)) :=
  (W2_of_ne m ρ c main_v1 (by decide)).trans (W1_v1 m ρ c)
theorem W2_v3 (c : Dev nD) : W2 m ρ c (Proc.devRef .tc main_v3) = dstRaw (m ((c.tc : Thread nD τ).loc main_arg1)) :=
  (W2_of_ne m ρ c main_v3 (by decide)).trans (W1_v3 m ρ c)
theorem W2_v11 (c : Dev nD) : W2 m ρ c (Proc.devRef .tc main_v11)
    = invP (dmaxP scatter_S50000_S800000x1_S800000_n_0_0_1 (dstRaw (m ((c.tc : Thread nD τ).loc main_arg1)))) :=
  (W2_of_ne m ρ c main_v11 (by decide)).trans (W1_v11 m ρ c)
theorem W2_arg5 (c : Dev nD) : W2 m ρ c (Proc.devRef .tc main_arg5) = m ((c.tc : Thread nD τ).loc main_arg5) :=
  (W2_of_ne m ρ c main_arg5 (by decide)).trans (W1_arg5 m ρ c)
theorem W2_arg6 (c : Dev nD) : W2 m ρ c (Proc.devRef .tc main_arg6) = m ((c.tc : Thread nD τ).loc main_arg6) :=
  (W2_of_ne m ρ c main_arg6 (by decide)).trans (W1_arg6 m ρ c)
theorem W2_arg7 (c : Dev nD) : W2 m ρ c (Proc.devRef .tc main_arg7) = m ((c.tc : Thread nD τ).loc main_arg7) :=
  (W2_of_ne m ρ c main_arg7 (by decide)).trans (W1_arg7 m ρ c)

end Cert.KernelIdeal.HostV

end
-- ==== Proof.Bridge.lean ====
/-
  Both programs as whole-array functions of the arguments, and their equality on the extended reals.

  One program forms each neighbour mean as a product with the reciprocal of the floored edge counts and each dense
  layer as (mean·Wl + feat·Wr) + bias row; the other forms the mean as a quotient and the layer as
  (mean·Wl + bias) + feat·Wr, the bias vector spread into a row and over the rows. The mean law and the exchange of
  two summands make them one function, layer after layer: the second layer reads the first layer's output through the
  same gather and scatter-add, which are never opened.
-/
import proofs.«174927_j49100066128181_1_alg».proof.Proof.Dense
import proofs.«174927_j49100066128181_1_alg».proof.Proof.Mean

set_option maxRecDepth 16384

noncomputable section

namespace Cert.Sage

open Cert.KernelIdeal Cert.KernelIdeal.Facts₀ Idealize.ShloMosaic Idealize.ShloMosaic.ValueIdx

variable (G : GatherDims S50000x128 S800000x1 S800000x128) (Sc : ScatterDims S50000x128 S800000x1 S800000x128)
  (Sc1 : ScatterDims S50000 S800000x1 S800000)

/-- The law at the floored counts as both programs spell them. -/
theorem mean_dmax (agg : FVec Ideal S50000x128 .f32) (dstR : (⟨S800000, .i32⟩ : BufTy).Contents (Elt Ideal)) :
    meanMul (F := Ideal) agg (invP (dmaxP Sc1 dstR)) = meanDiv agg (dmaxP Sc1 dstR) :=
  mean_eq agg _

/-! ## The program with the grids -/

/-- Its first layer's output: the dense layer, floored at zero, of the mean (a product) and the features. -/
def kHidden (x : FVec Ideal S50000x128 .f32) (e : (⟨S2x800000, .i32⟩ : BufTy).Contents (Elt Ideal))
    (W1l W1r : FVec Ideal S128x128 .f32) (b1 : FVec Ideal S1x128 .f32) : FVec Ideal S50000x128 .f32 :=
  denseRelu (meanMul (aggP G Sc x (srcRaw e) (dstRaw e)) (invP (dmaxP Sc1 (dstRaw e)))) x W1l W1r b1

/-- Its result: the dense layer of the mean of the first layer's output and that output. -/
def kOut (x : FVec Ideal S50000x128 .f32) (e : (⟨S2x800000, .i32⟩ : BufTy).Contents (Elt Ideal))
    (W1l W1r : FVec Ideal S128x128 .f32) (b1 : FVec Ideal S1x128 .f32)
    (W2l W2r : FVec Ideal S128x64 .f32) (b2 : FVec Ideal S1x64 .f32) : FVec Ideal S50000x64 .f32 :=
  denseArr (meanMul (aggP G Sc (kHidden G Sc Sc1 x e W1l W1r b1) (srcRaw e) (dstRaw e)) (invP (dmaxP Sc1 (dstRaw e))))
    (kHidden G Sc Sc1 x e W1l W1r b1) W2l W2r b2

/-! ## The host-only program -/

/-- Its first layer's output. -/
def rHidden (x : FVec Ideal S50000x128 .f32) (e : (⟨S2x800000, .i32⟩ : BufTy).Contents (Elt Ideal))
    (W1l W1r : FVec Ideal S128x128 .f32) (b1 : FVec Ideal S128 .f32)
    (h1 : S128.BroadcastsInDim S1x128 (![1] : Fin 1 → Fin 2))
    (h2 : S1x128.BroadcastsInDim S50000x128 (![0, 1] : Fin 2 → Fin 2)) : FVec Ideal S50000x128 .f32 :=
  maximumf (addf (addf (Host.dotGeneral (φ₁ := .f32) (DotDims.plain 50000 128 128) none
          (meanDiv (aggP G Sc x (srcRaw e) (dstRaw e)) (dmaxP Sc1 (dstRaw e)) : FVec Ideal S50000x128 .f32) W1l)
        (broadcastInDim S50000x128 ![0, 1] h2 (broadcastInDim S1x128 ![1] h1 b1)))
      (Host.dotGeneral (DotDims.plain 50000 128 128) none x W1r))
    (broadcastInDim S50000x128 ![] bcast_S_S50000x128 (constant S_ .f32 0x00000000#32))

/-- Its result. -/
def rOut (x : FVec Ideal S50000x128 .f32) (e : (⟨S2x800000, .i32⟩ : BufTy).Contents (Elt Ideal))
    (W1l W1r : FVec Ideal S128x128 .f32) (b1 : FVec Ideal S128 .f32)
    (W2l W2r : FVec Ideal S128x64 .f32) (b2 : FVec Ideal S64 .f32)
    (h1 : S128.BroadcastsInDim S1x128 (![1] : Fin 1 → Fin 2))
    (h2 : S1x128.BroadcastsInDim S50000x128 (![0, 1] : Fin 2 → Fin 2))
    (h1' : S64.BroadcastsInDim S1x64 (![1] : Fin 1 → Fin 2))
    (h2' : S1x64.BroadcastsInDim S50000x64 (![0, 1] : Fin 2 → Fin 2)) : FVec Ideal S50000x64 .f32 :=
  addf (addf (Host.dotGeneral (φ₁ := .f32) (DotDims.plain 50000 128 64) none
        (meanDiv (aggP G Sc (rHidden G Sc Sc1 x e W1l W1r b1 h1 h2) (srcRaw e) (dstRaw e)) (dmaxP Sc1 (dstRaw e)) : FVec Ideal S50000x128 .f32) W2l)
      (broadcastInDim S50000x64 ![0, 1] h2' (broadcastInDim S1x64 ![1] h1' b2)))
    (Host.dotGeneral (DotDims.plain 50000 128 64) none (rHidden G Sc Sc1 x e W1l W1r b1 h1 h2) W2r)

/-! ## One function -/

theorem hidden_eq (x : FVec Ideal S50000x128 .f32) (e : (⟨S2x800000, .i32⟩ : BufTy).Contents (Elt Ideal))
    (W1l W1r : FVec Ideal S128x128 .f32) (b1 : FVec Ideal S128 .f32)
    (h1 : S128.BroadcastsInDim S1x128 (![1] : Fin 1 → Fin 2))
    (h2 : S1x128.BroadcastsInDim S50000x128 (![0, 1] : Fin 2 → Fin 2)) :
    kHidden G Sc Sc1 x e W1l W1r (shapeCast S1x128 b1 shapeCasts_S128_S1x128) = rHidden G Sc Sc1 x e W1l W1r b1 h1 h2 := by
  unfold kHidden rHidden
  rw [mean_dmax]
  exact (host_layer_relu 50000 128 _ x W1l W1r b1 h1 h2 shapeCasts_S128_S1x128 bcast_S_S50000x128).symm

/-- THE TWO PROGRAMS' RESULTS are one function of the arguments. -/
theorem out_eq (x : FVec Ideal S50000x128 .f32) (e : (⟨S2x800000, .i32⟩ : BufTy).Contents (Elt Ideal))
    (W1l W1r : FVec Ideal S128x128 .f32) (b1 : FVec Ideal S128 .f32)
    (W2l W2r : FVec Ideal S128x64 .f32) (b2 : FVec Ideal S64 .f32)
    (h1 : S128.BroadcastsInDim S1x128 (![1] : Fin 1 → Fin 2))
    (h2 : S1x128.BroadcastsInDim S50000x128 (![0, 1] : Fin 2 → Fin 2))
    (h1' : S64.BroadcastsInDim S1x64 (![1] : Fin 1 → Fin 2))
    (h2' : S1x64.BroadcastsInDim S50000x64 (![0, 1] : Fin 2 → Fin 2)) :
    kOut G Sc Sc1 x e W1l W1r (shapeCast S1x128 b1 shapeCasts_S128_S1x128) W2l W2r (shapeCast S1x64 b2 shapeCasts_S64_S1x64)
      = rOut G Sc Sc1 x e W1l W1r b1 W2l W2r b2 h1 h2 h1' h2' := by
  unfold kOut rOut
  rw [hidden_eq G Sc Sc1 x e W1l W1r b1 h1 h2, mean_dmax]
  exact (host_layer 50000 64 _ _ W2l W2r b2 h1' h2' shapeCasts_S64_S1x64).symm

end Cert.Sage

end
-- ==== Proof.KValue.lean ====
/-
  The idealized kernel program's result as one function of its arguments.

  The first grid is entered with the neighbour mean of the node features, the features, the first layer's weights
  and its bias as one row, and leaves the first layer's output; the host operations between the grids build that
  output's neighbour mean from the same edge rows and the same reciprocal of the floored edge counts; the second grid
  is entered with it, the first layer's output, the second layer's weights and bias row, and leaves the result.
-/
import proofs.«174927_j49100066128181_1_alg».proof.Proof.Blocks0
import proofs.«174927_j49100066128181_1_alg».proof.Proof.Blocks1
import proofs.«174927_j49100066128181_1_alg».proof.Proof.HostVals
import proofs.«174927_j49100066128181_1_alg».proof.Proof.Bridge

set_option maxRecDepth 16384

noncomputable section

namespace Cert.KernelIdeal.KValue

open Cert.KernelIdeal Cert.KernelIdeal.Gen Cert.KernelIdeal.HostV Cert.Sage
open Idealize.ShloMosaic Idealize.ShloMosaic.TcCoe Idealize.SL.Sem

variable (m : (ℓ : Loc nD τ sig) → Buf (Elt Ideal) ℓ) (ρ : Dev nD → PrngReg)

/-- After the first grid its output array holds the first layer's output. -/
theorem hidden_val (c : Dev nD) : W2 m ρ c (Proc.devRef .tc main_v26)
    = kHidden gather_S50000x128_S800000x1_S800000x128_1_0_n_n_0_1_1128 scatter_S50000x128_S800000x1_S800000x128_1_0_0_1 scatter_S50000_S800000x1_S800000_n_0_0_1
        (m ((c.tc : Thread nD τ).loc main_arg0)) (m ((c.tc : Thread nD τ).loc main_arg1)) (m ((c.tc : Thread nD τ).loc main_arg2)) (m ((c.tc : Thread nD τ).loc main_arg4)) (shapeCast S1x128 (m ((c.tc : Thread nD τ).loc main_arg3)) Facts₀.shapeCasts_S128_S1x128) := by
  refine (W2_arr m ρ c 5).trans ?_
  refine (Blocks0.final (V1 m ρ) c).trans ?_
  show denseRelu (W1 m ρ c (Proc.devRef .tc main_v24)) (W1 m ρ c (Proc.devRef .tc main_arg0)) (W1 m ρ c (Proc.devRef .tc main_arg2))
    (W1 m ρ c (Proc.devRef .tc main_arg4)) (W1 m ρ c (Proc.devRef .tc main_v25)) = _
  rw [W1_v24, W1_arg0, W1_arg2, W1_arg4, W1_v25]
  rfl

/-- After the second grid its output array holds the program's result. -/
theorem out_val (c : Dev nD) : (dat1 (V3 m ρ) c).arrAt 5 cfg1.N
    = kOut gather_S50000x128_S800000x1_S800000x128_1_0_n_n_0_1_1128 scatter_S50000x128_S800000x1_S800000x128_1_0_0_1 scatter_S50000_S800000x1_S800000_n_0_0_1
        (m ((c.tc : Thread nD τ).loc main_arg0)) (m ((c.tc : Thread nD τ).loc main_arg1)) (m ((c.tc : Thread nD τ).loc main_arg2)) (m ((c.tc : Thread nD τ).loc main_arg4)) (shapeCast S1x128 (m ((c.tc : Thread nD τ).loc main_arg3)) Facts₀.shapeCasts_S128_S1x128)
        (m ((c.tc : Thread nD τ).loc main_arg5)) (m ((c.tc : Thread nD τ).loc main_arg7)) (shapeCast S1x64 (m ((c.tc : Thread nD τ).loc main_arg6)) Facts₀.shapeCasts_S64_S1x64) := by
  refine (Blocks1.final (V3 m ρ) c).trans ?_
  show denseArr (W3 m ρ c (Proc.devRef .tc main_v39)) (W3 m ρ c (Proc.devRef .tc main_v26)) (W3 m ρ c (Proc.devRef .tc main_arg5))
    (W3 m ρ c (Proc.devRef .tc main_arg7)) (W3 m ρ c (Proc.devRef .tc main_v40)) = _
  rw [W3_v39, W3_v26, W3_arg5, W3_arg7, W3_v40, W2_v1, W2_v3, W2_v11, W2_arg5, W2_arg6, W2_arg7, hidden_val]
  rfl

end Cert.KernelIdeal.KValue

end
-- ==== Proof.RefValue.lean ====
/-
  The host-only program's result is the whole-array function of its arguments that the bridge names.

  Its run ends with the result at the composed term of its sixty-nine operations; that term, read with the pieces
  named (edge rows, gathered and summed neighbour rows, floored edge counts, the two host layers), is the function.
-/
import proofs.«174927_j49100066128181_1_alg».proof.Proof.Gen.ReferenceIdeal.Run
import proofs.«174927_j49100066128181_1_alg».proof.Proof.Bridge

set_option maxRecDepth 16384

noncomputable section

namespace Cert.ReferenceIdeal.RefValue

open Cert.ReferenceIdeal Cert.ReferenceIdeal.Value Cert.Sage
open Idealize.ShloMosaic Idealize.ShloMosaic.TcCoe Idealize.SL.Sem

/-- The reference's product records are the plain M×K by K×N dimension numbers. -/
theorem dot1_eq : dot_S50000x128_S128x128_S50000x128_1_0_0_1_n_n = DotDims.plain 50000 128 128 := rfl
theorem dot2_eq : dot_S50000x128_S128x64_S50000x64_1_0_0_1_n_n = DotDims.plain 50000 128 64 := rfl

set_option maxHeartbeats 4000000 in
/-- The run's result term is the host-only program's function of the arguments. -/
theorem res_eq (m : (ℓ : Loc nD τ sig) → Buf (Elt Ideal) ℓ) (c : Dev nD) :
    res_main_v54 (F := Ideal) m c
      = rOut gather_S50000x128_S800000x1_S800000x128_1_0_n_n_0_1_1128 scatter_S50000x128_S800000x1_S800000x128_1_0_0_1 scatter_S50000_S800000x1_S800000_n_0_0_1
          (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg3)) (m ((c.tc : Thread nD τ).loc main_arg5)) (m ((c.tc : Thread nD τ).loc main_arg7)) (m ((c.tc : Thread nD τ).loc main_arg6))
          Facts₀.bcast_S128_S1x128_1 Facts₀.bcast_S1x128_S50000x128_0_1 Facts₀.bcast_S64_S1x64_1 Facts₀.bcast_S1x64_S50000x64_0_1 := by
  unfold res_main_v54
  rw [dot1_eq, dot2_eq]
  rfl

end Cert.ReferenceIdeal.RefValue

end
-- ==== Proof.lean ====
/-
  A two-layer mean-aggregating graph convolution: the program whose dense layers run as two grids of row blocks
  against the host-only program, equal on the extended reals.

  Both programs gather neighbour rows along the edge list, sum them per target node and divide by the floored edge
  count; both apply (mean·Wl + feat·Wr + bias), a maximum with zero after the first layer. They differ in three
  spellings: the mean as a product with a reciprocal against a quotient (equal because the floored count is never
  zero), the order of the three summands of a layer (equal because addition of extended reals is commutative and
  associative), and matrix products of row blocks on the grid against whole products on the host (the same sums, block
  by block). No finiteness of the inputs is used. The three frame claims are the generated frames and the reference's
  generated run; the idealization rewrote nothing, so the preservation claim is trivial.
-/
import proofs.«174927_j49100066128181_1_alg».proof.Defs
import proofs.«174927_j49100066128181_1_alg».proof.Proof.Gen.Kernel
import proofs.«174927_j49100066128181_1_alg».proof.Proof.Gen.Kernel.Frame
import proofs.«174927_j49100066128181_1_alg».proof.Proof.Gen.KernelIdeal
import proofs.«174927_j49100066128181_1_alg».proof.Proof.Gen.KernelIdeal.Frame
import proofs.«174927_j49100066128181_1_alg».proof.Proof.Gen.ReferenceIdeal
import proofs.«174927_j49100066128181_1_alg».proof.Proof.Gen.Pre_finite_inputs
import proofs.«174927_j49100066128181_1_alg».proof.Proof.Gen.ReferenceIdeal.Run
import proofs.«174927_j49100066128181_1_alg».proof.Proof.KRun
import proofs.«174927_j49100066128181_1_alg».proof.Proof.KValue
import proofs.«174927_j49100066128181_1_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem Cert.Sage

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- The gather and the two scatter-adds have the same dimension numbers in both programs. -/
theorem gather_eq : Cert.ReferenceIdeal.gather_S50000x128_S800000x1_S800000x128_1_0_n_n_0_1_1128 = Cert.KernelIdeal.gather_S50000x128_S800000x1_S800000x128_1_0_n_n_0_1_1128 := rfl
theorem scatter_eq : Cert.ReferenceIdeal.scatter_S50000x128_S800000x1_S800000x128_1_0_0_1 = Cert.KernelIdeal.scatter_S50000x128_S800000x1_S800000x128_1_0_0_1 := rfl
theorem scatter1_eq : Cert.ReferenceIdeal.scatter_S50000_S800000x1_S800000_n_0_0_1 = Cert.KernelIdeal.scatter_S50000_S800000x1_S800000_n_0_0_1 := rfl

/-- From memories that agree on the eight arguments both programs end, the result arrays equal entry by entry: the
    program with the grids ends at its function of the arguments, the host-only program at its own, and the two are
    one function. -/
theorem algebraic : Cert.algebraic_KernelIdeal_ReferenceIdeal := by
  intro m ρ m' ρ' _ hagree
  refine ⟨fun c => kOut Cert.KernelIdeal.gather_S50000x128_S800000x1_S800000x128_1_0_n_n_0_1_1128 Cert.KernelIdeal.scatter_S50000x128_S800000x1_S800000x128_1_0_0_1 Cert.KernelIdeal.scatter_S50000_S800000x1_S800000_n_0_0_1
      (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4))
      (shapeCast Cert.KernelIdeal.S1x128 (m ((c.tc : Thread Cert.KernelIdeal.nD Cert.KernelIdeal.τ).loc Cert.KernelIdeal.main_arg3)) Cert.KernelIdeal.Facts₀.shapeCasts_S128_S1x128)
      (m ((c.tc : Thread Cert.KernelIdeal.nD Cert.KernelIdeal.τ).loc Cert.KernelIdeal.main_arg5)) (m ((c.tc : Thread Cert.KernelIdeal.nD Cert.KernelIdeal.τ).loc Cert.KernelIdeal.main_arg7))
      (shapeCast Cert.KernelIdeal.S1x64 (m ((c.tc : Thread Cert.KernelIdeal.nD Cert.KernelIdeal.τ).loc Cert.KernelIdeal.main_arg6)) Cert.KernelIdeal.Facts₀.shapeCasts_S64_S1x64), ?_, ?_⟩
  · exact (θ_run Cert.KernelIdeal.defs _ _).mono
      (fun r h c => ⟨(h c).1.trans (Cert.KernelIdeal.KValue.out_val m ρ c), (h c).2⟩)
      (Cert.KernelIdeal.RunV.run_main (F := Ideal) m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5, a6, a7⟩ := hagree c
    rw [Cert.ReferenceIdeal.RefValue.res_eq, a0, a1, a2, a3, a4, a5, a6, a7, gather_eq, scatter_eq, scatter1_eq]
    exact (out_eq _ _ _ _ _ _ _ _ _ _ _ _ _ _ _).symm

theorem claim : Cert.Claim := ⟨Cert.Kernel.Gen.facts, Cert.KernelIdeal.Gen.facts, Cert.ReferenceIdeal.Gen.facts,
  Cert.Pre_finite_inputs.Gen.facts, frame_k, frame_ki, frame_ri, preserves, algebraic⟩

end Cert.Proof

end
